-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S5000x64 : Shape := ⟨2, ![5000, 64]⟩
abbrev S1x32 : Shape := ⟨2, ![1, 32]⟩
abbrev S50000x32 : Shape := ⟨2, ![50000, 32]⟩
abbrev S5000x32 : Shape := ⟨2, ![5000, 32]⟩

abbrev nBuf : Space → Nat
  | .hbm => 67
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x1, .f32⟩
  | .hbm, ⟨45, _⟩ => ⟨S50000x64, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S1x32, .f32⟩
  | .hbm, ⟨66, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x32 : Shape := ⟨2, ![50000, 32]⟩
abbrev S1x32 : Shape := ⟨2, ![1, 32]⟩

abbrev nBuf : Space → Nat
  | .hbm => 99
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S_, .f32⟩
  | .hbm, ⟨43, _⟩ => ⟨S50000x64, .i1⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S1x800000, .i32⟩
  | .hbm, ⟨56, _⟩ => ⟨S800000, .i32⟩
  | .hbm, ⟨57, _⟩ => ⟨S1x800000, .i32⟩
  | .hbm, ⟨58, _⟩ => ⟨S800000, .i32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .i1⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x64, .f32⟩
  | .hbm, ⟨87, _⟩ => ⟨S50000x64, .f32⟩
  | .hbm, ⟨88, _⟩ => ⟨S_, .f32⟩
  | .hbm, ⟨89, _⟩ => ⟨S_, .f32⟩
  | .hbm, ⟨90, _⟩ => ⟨S50000x64, .i1⟩
  | .hbm, ⟨91, _⟩ => ⟨S50000x64, .f32⟩
  | .hbm, ⟨92, _⟩ => ⟨S50000x64, .f32⟩
  | .hbm, ⟨93, _⟩ => ⟨S50000x32, .f32⟩
  | .hbm, ⟨94, _⟩ => ⟨S50000x32, .f32⟩
  | .hbm, ⟨95, _⟩ => ⟨S50000x32, .f32⟩
  | .hbm, ⟨96, _⟩ => ⟨S1x32, .f32⟩
  | .hbm, ⟨97, _⟩ => ⟨S50000x32, .f32⟩
  | .hbm, ⟨98, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_cst : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KernelRun.lean ====
/-
  The idealized kernel program's run with the contents of EVERY unscoped buffer in the post.

  The program is a line of host operations, a first kernel region, a second line of host operations and a second
  kernel region. After the last region every unscoped buffer of a core holds the fold of those four steps over the
  launch memory: each host line applied to the contents before it, each region's arrays replaced by what its
  write-backs leave. Every weakly fair execution terminates in a state whose memory is that fold; the result
  buffer and the argument buffers are read off it.
-/
import proofs.«110673_j54065048323043_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every
    unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run read at the result buffer and at the arguments: the result holds what the second region's
    write-backs leave in its output array, the arguments their launch contents. -/
theorem run_result : θ_run defs (onTc (τ := τ) (main (F := F))) ⟨m, fun _ => 0, ρ⟩ (fun r => ∀ c : Dev nD,
      r.2.mem ((c.tc : Thread nD τ).loc main_v44) = (dat1 (V5 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v44 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_all m ρ)

end Cert.KernelIdeal.RunValue

end
-- ==== Proof.Spec.lean ====
/-
  The mathematics both programs compute: two graph-convolution layers with mean aggregation.

  A layer takes node features X : [N, K], the per-node sums MS of the features of a node's in-neighbours and the
  per-node in-degree C, and returns A · Wn + X · Wr + b, where row i of A is the mean of the in-neighbours'
  features: MS(i, ·) / max(C(i), 1) where C(i) > 0, and zero where node i has no in-neighbour.
  One program multiplies the row sum by the per-node factor (1 / max(C, 1) where C > 0, else 0); the other
  divides the row sum by max(C, 1) and selects. On the extended reals the two agree at every value of the sum
  and of the degree: the divisor max(C, 1) is at least one, so it is never zero and a quotient by it is the
  product with its inverse; and any extended real times zero is zero.
-/
import Idealize.ShloMosaic.Lib.ValueIdx
import Idealize.ShloMosaic.PureOps.Ideal
import Idealize.ShloMosaic.PureOps.Ideal.Laws

noncomputable section

namespace Cert.Sage

open Idealize.ShloMosaic Idealize.ShloMosaic.ValueIdx

/-- The float word of 1.0 denotes the real one. -/
theorem ofBits_one : Ideal.ofBits .f32 0x3F800000#32 = 1 := by
  simp [Ideal.ofBits, Ideal.ieee, -EReal.coe_mul]; norm_num

/-- The float word of +0.0 denotes zero. -/
theorem ofBits_zero : Ideal.ofBits .f32 0x00000000#32 = 0 := by
  simp [Ideal.ofBits, Ideal.ieee]

/-- The mean of a node's in-neighbours, from the neighbours' sum `ms` and the in-degree `c`: the sum over
    max(c, 1) where the degree is positive, zero at an isolated node. -/
def mean (ms c : EReal) : EReal :=
  Scalar.select (FloatOps.cmpf (F := Ideal) (φ := .f32) .ogt c (Ideal.ofBits .f32 0x00000000#32))
    (Ideal.div ms (max c (Ideal.ofBits .f32 0x3F800000#32))) (Ideal.ofBits .f32 0x00000000#32)

/-- The sum times the per-node factor is the mean: max(c, 1) ≥ 1 is not zero, so both quotients are products
    with its inverse, and at an isolated node the factor is zero, which annihilates every extended real. -/
theorem mul_factor_eq_mean (ms c : EReal) :
    ms * Scalar.select (FloatOps.cmpf (F := Ideal) (φ := .f32) .ogt c (Ideal.ofBits .f32 0x00000000#32))
        (Ideal.div (Ideal.ofBits .f32 0x3F800000#32) (max c (Ideal.ofBits .f32 0x3F800000#32))) (Ideal.ofBits .f32 0x00000000#32)
      = mean ms c := by
  unfold mean
  have hy : max c (Ideal.ofBits .f32 0x3F800000#32) ≠ 0 := by
    rw [ofBits_one]; exact ne_of_gt (lt_of_lt_of_le zero_lt_one (le_max_right _ _))
  rcases BitVec.eq_zero_or_eq_one (FloatOps.cmpf (F := Ideal) (φ := .f32) .ogt c (Ideal.ofBits .f32 0x00000000#32)) with h | h
  · rw [h, select_zero, select_zero, ofBits_zero, mul_zero]
  · rw [h, select_one, select_one, Ideal.div, if_neg hy, Ideal.div, if_neg hy, ofBits_one, one_mul]

/-- The node-wise means as an array: entry (i, k) is the mean from the sum at (i, k) and node i's degree. -/
def meanRows {M K : Nat} (MS : (⟨2, ![M, K]⟩ : Shape).Idx → EReal) (C : (⟨1, ![M]⟩ : Shape).Idx → EReal) :
    (⟨2, ![M, K]⟩ : Shape).Idx → EReal :=
  fun i => mean (MS i) (C (ix1 (i 0)))

/-- The layer's affine map: entry (i, j) is Σₖ A(i, k) · Wn(k, j) + Σₖ X(i, k) · Wr(k, j), plus the bias b(j). -/
def dense {M K D : Nat} (A X : (⟨2, ![M, K]⟩ : Shape).Idx → EReal) (Wn Wr : (⟨2, ![K, D]⟩ : Shape).Idx → EReal)
    (b : (⟨1, ![D]⟩ : Shape).Idx → EReal) : (⟨2, ![M, D]⟩ : Shape).Idx → EReal :=
  fun i => (∑ k : Fin K, A (ix2 (i 0) k) * Wn (ix2 k (i 1)) + ∑ k : Fin K, X (ix2 (i 0) k) * Wr (ix2 k (i 1))) + b (ix1 (i 1))

/-- The rectifier, entry by entry: the larger of the entry and zero. -/
def relu {s : Shape} (Y : s.Idx → EReal) : s.Idx → EReal :=
  fun i => max (Y i) (Ideal.ofBits .f32 0x00000000#32)

end Cert.Sage

end
-- ==== Proof.RefValue.lean ====
/-
  The reference program's result, index by index, as the two-layer map of Spec.lean.

  The reference computes, per layer, the neighbour sums (a gather at the edges' sources scatter-added at their
  destinations) and the in-degrees, divides row i of the sums by max(degree i, 1), selects zero where the degree
  is not positive, and applies the affine map A · Wn + X · Wr + b; the first layer's output is rectified.
  Each stage is read at an index from its operands at an index; the gathers and scatters stay whole-array terms.
-/
import proofs.«110673_j54065048323043_1_alg».proof.Proof.RefRead
import proofs.«110673_j54065048323043_1_alg».proof.Proof.Spec

noncomputable section

namespace Cert.ReferenceIdeal.RefValue

open Cert.ReferenceIdeal Cert.ReferenceIdeal.Read Idealize.ShloMosaic Idealize.ShloMosaic.ValueIdx

/-! ## Index maps of the broadcasts and contractions, by coordinates -/

theorem col_row (p : Fin 50000) (q : Fin 64) : idx_main_v18 (idx_main_call0_v1 (ix2 p q)) = ix1 p :=
  funext fun a => match a with | ⟨0, _⟩ => rfl
theorem col_row' (p : Fin 50000) (q : Fin 64) : idx_main_v23 (idx_main_v24 (ix2 p q)) = ix1 p :=
  funext fun a => match a with | ⟨0, _⟩ => rfl
theorem col_row2 (p : Fin 50000) (q : Fin 64) : idx_main_v52 (idx_main_call2_v1 (ix2 p q)) = ix1 p :=
  funext fun a => match a with | ⟨0, _⟩ => rfl
theorem col_row2' (p : Fin 50000) (q : Fin 64) : idx_main_v57 (idx_main_v58 (ix2 p q)) = ix1 p :=
  funext fun a => match a with | ⟨0, _⟩ => rfl

/-! ## The mean aggregation -/

/-- Layer 1's aggregated features are the node-wise means of the neighbour sums. -/
theorem mean1 (x0 : (⟨S50000x64, .f32⟩ : BufTy).Contents (Elt Ideal)) (x1 : (⟨S2x800000, .i32⟩ : BufTy).Contents (Elt Ideal)) :
    val_main_v26 (F := Ideal) x0 x1 = Cert.Sage.meanRows (M := 50000) (K := 64) (val_main_v13 (F := Ideal) x0 x1) (val_main_v17 (F := Ideal) x1) := by
  funext i
  obtain ⟨p, q, rfl⟩ : ∃ (p : Fin 50000) (q : Fin 64), i = ix2 p q := ⟨i 0, i 1, eq_ix2 i⟩
  rw [val_main_v26_apply, val_main_call0_v1_apply, val_main_v20_apply, val_main_v18_apply, val_main_v19_apply, val_main_cst_3_apply,
    val_main_v25_apply, val_main_v24_apply, val_main_v23_apply, val_main_v22_apply, val_main_v21_apply, val_main_cst_4_apply,
    val_main_call0_v2_apply, val_main_call0_v0_apply, val_main_cst_5_apply, col_row, col_row']
  rfl

/-- Layer 2's aggregated features, likewise. -/
theorem mean2 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v60 (F := Ideal) x0 x1 x2 x3 x4
      = Cert.Sage.meanRows (M := 50000) (K := 64) (val_main_v47 (F := Ideal) x0 x1 x2 x3 x4) (val_main_v51 (F := Ideal) x1) := by
  funext i
  obtain ⟨p, q, rfl⟩ : ∃ (p : Fin 50000) (q : Fin 64), i = ix2 p q := ⟨i 0, i 1, eq_ix2 i⟩
  rw [val_main_v60_apply, val_main_call2_v1_apply, val_main_v54_apply, val_main_v52_apply, val_main_v53_apply, val_main_cst_11_apply,
    val_main_v59_apply, val_main_v58_apply, val_main_v57_apply, val_main_v56_apply, val_main_v55_apply, val_main_cst_12_apply,
    val_main_call2_v2_apply, val_main_call2_v0_apply, val_main_cst_13_apply, col_row2, col_row2']
  rfl

/-! ## The affine maps -/

theorem l27 (p : Fin 50000) (q : Fin 64) (k : Fin 64) : lidx_main_v27 (ix2 p q) k = ix2 p k :=
  funext fun a => match a with | ⟨0, _⟩ => rfl | ⟨1, _⟩ => rfl
theorem r27 (p : Fin 50000) (q : Fin 64) (k : Fin 64) : ridx_main_v27 (ix2 p q) k = ix2 k q :=
  funext fun a => match a with | ⟨0, _⟩ => rfl | ⟨1, _⟩ => rfl
theorem l28 (p : Fin 50000) (q : Fin 64) (k : Fin 64) : lidx_main_v28 (ix2 p q) k = ix2 p k :=
  funext fun a => match a with | ⟨0, _⟩ => rfl | ⟨1, _⟩ => rfl
theorem r28 (p : Fin 50000) (q : Fin 64) (k : Fin 64) : ridx_main_v28 (ix2 p q) k = ix2 k q :=
  funext fun a => match a with | ⟨0, _⟩ => rfl | ⟨1, _⟩ => rfl
theorem b31 (p : Fin 50000) (q : Fin 64) : idx_main_v30 (idx_main_v31 (ix2 p q)) = ix1 q :=
  funext fun a => match a with | ⟨0, _⟩ => rfl
theorem l61 (p : Fin 50000) (q : Fin 32) (k : Fin 64) : lidx_main_v61 (ix2 p q) k = ix2 p k :=
  funext fun a => match a with | ⟨0, _⟩ => rfl | ⟨1, _⟩ => rfl
theorem r61 (p : Fin 50000) (q : Fin 32) (k : Fin 64) : ridx_main_v61 (ix2 p q) k = ix2 k q :=
  funext fun a => match a with | ⟨0, _⟩ => rfl | ⟨1, _⟩ => rfl
theorem l62 (p : Fin 50000) (q : Fin 32) (k : Fin 64) : lidx_main_v62 (ix2 p q) k = ix2 p k :=
  funext fun a => match a with | ⟨0, _⟩ => rfl | ⟨1, _⟩ => rfl
theorem r62 (p : Fin 50000) (q : Fin 32) (k : Fin 64) : ridx_main_v62 (ix2 p q) k = ix2 k q :=
  funext fun a => match a with | ⟨0, _⟩ => rfl | ⟨1, _⟩ => rfl
theorem b65 (p : Fin 50000) (q : Fin 32) : idx_main_v64 (idx_main_v65 (ix2 p q)) = ix1 q :=
  funext fun a => match a with | ⟨0, _⟩ => rfl

/-- Layer 1 before the rectifier is the affine map of the aggregated features and the input features. -/
theorem dense1 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v32 (F := Ideal) x0 x1 x2 x3 x4
      = Cert.Sage.dense (M := 50000) (K := 64) (D := 64) (val_main_v26 (F := Ideal) x0 x1) x0 x2 x3 x4 := by
  funext i
  obtain ⟨p, q, rfl⟩ : ∃ (p : Fin 50000) (q : Fin 64), i = ix2 p q := ⟨i 0, i 1, eq_ix2 i⟩
  rw [val_main_v32_apply, val_main_v29_apply, val_main_v27_apply, val_main_v28_apply, val_main_v31_apply, val_main_v30_apply, b31]
  simp only [l27, r27, l28, r28]
  rfl

/-- Layer 1's output: the rectified affine map. -/
theorem relu1 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal)) :
    val_main_v33 (F := Ideal) x0 x1 x2 x3 x4 = Cert.Sage.relu (val_main_v32 (F := Ideal) x0 x1 x2 x3 x4) := by
  funext i
  rw [val_main_v33_apply, val_main_call1_v0_apply, val_main_call1_cst_apply]
  rfl

/-- Layer 2 is the affine map of its aggregated features and the first layer's output. -/
theorem dense2 (x0 : (⟨S50000x64, .f32⟩ : BufTy).Contents (Elt Ideal)) (x1 : (⟨S2x800000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x32, .f32⟩ : BufTy).Contents (Elt Ideal)) (x7 : (⟨S32, .f32⟩ : BufTy).Contents (Elt Ideal)) :
    val_main_v66 (F := Ideal) x0 x1 x2 x3 x4 x5 x6 x7
      = Cert.Sage.dense (M := 50000) (K := 64) (D := 32) (val_main_v60 (F := Ideal) x0 x1 x2 x3 x4) (val_main_v33 (F := Ideal) x0 x1 x2 x3 x4) x5 x6 x7 := by
  funext i
  obtain ⟨p, q, rfl⟩ : ∃ (p : Fin 50000) (q : Fin 32), i = ix2 p q := ⟨i 0, i 1, eq_ix2 i⟩
  rw [val_main_v66_apply, val_main_v63_apply, val_main_v61_apply, val_main_v62_apply, val_main_v65_apply, val_main_v64_apply, b65]
  simp only [l61, r61, l62, r62]
  rfl

end Cert.ReferenceIdeal.RefValue

end
-- ==== Proof.HostK.lean ====
/-
  The host operations around the two kernel regions, read as whole-array terms of the arguments.

  From the edge list the program takes the source and the destination of every edge (a negative source index
  counted from the end), scatters a one per edge to its destination to count in-degrees, and forms the per-node
  factor: 1 / max(degree, 1) at a node of positive in-degree, 0 at an isolated node. For a feature array X it
  gathers X's rows at the edges' sources, scatter-adds them at the destinations, and multiplies row i of the sum
  by node i's factor. The first region is entered with that array for the input features, the second with that
  array for the first region's output.
  Each line of host operations is read once, over an arbitrary valuation of the buffers before it; the lines are
  then composed from the launch memory.
-/
import proofs.«110673_j54065048323043_1_alg».proof.Proof.Gen.KernelIdeal.Frame
import Idealize.ShloMosaic.Lib.StableHlo.Run
import Idealize.ShloMosaic.PureOps.Ideal

set_option maxRecDepth 16384

noncomputable section

namespace Cert.KernelIdeal.HostK

open Cert.KernelIdeal Cert.KernelIdeal.Gen Idealize.ShloMosaic Idealize.ShloMosaic.TcCoe Idealize.SL.Sem Idealize.ShloMosaic.StableHlo

variable {F : FTy → Type} [FloatOps F]

/-- The edges' source row, as a vector. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination row, as a vector. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The in-degrees from the destinations: a one per edge, scatter-added at the edge's destination into zeros. -/
def degreeOf (d : (⟨S800000, .i32⟩ : BufTy).Contents (Elt F)) : (⟨S50000, .f32⟩ : BufTy).Contents (Elt F) :=
  Host.scatterAdd (F := F) scatter_S50000_S800000x1_S800000_n_0_0_1
    (broadcastInDim S50000 ![] bcast_S_S50000 (constant (F := F) S_ .f32 0x00000000#32))
    (broadcastInDim S800000x1 ![0] bcast_S800000_S800000x1_0 d)
    (broadcastInDim S800000 ![] bcast_S_S800000 (constant (F := F) S_ .f32 0x3F800000#32))

/-- The per-node factor from the in-degrees: 1 / max(degree, 1) where the degree is positive, else 0. -/
def factorOf (g : (⟨S50000, .f32⟩ : BufTy).Contents (Elt F)) : (⟨S50000, .f32⟩ : BufTy).Contents (Elt F) :=
  select (cmpf (F := F) .ogt g (broadcastInDim S50000 ![] bcast_S_S50000 (constant (F := F) S_ .f32 0x00000000#32)))
    (Host.divf (F := F) (broadcastInDim S50000 ![] bcast_S_S50000 (constant (F := F) S_ .f32 0x3F800000#32))
      (maximumf g (broadcastInDim S50000 ![] bcast_S_S50000 (constant (F := F) S_ .f32 0x3F800000#32))))
    (broadcastInDim S50000 ![] bcast_S_S50000 (id (constant (F := F) S_ .f32 0x00000000#32)))

/-- The neighbour sums of a feature array from the sources and destinations: its rows gathered at the sources
    (a negative source moved up by the number of nodes), scatter-added at the destinations into zeros. -/
def sumOf (X : (⟨S50000x64, .f32⟩ : BufTy).Contents (Elt F)) (s d : (⟨S800000, .i32⟩ : BufTy).Contents (Elt F)) :
    (⟨S50000x64, .f32⟩ : BufTy).Contents (Elt F) :=
  Host.scatterAdd (F := F) scatter_S50000x64_S800000x1_S800000x64_1_0_0_1
    (broadcastInDim S50000x64 ![] bcast_S_S50000x64 (constant (F := F) S_ .f32 0x00000000#32))
    (broadcastInDim S800000x1 ![0] bcast_S800000_S800000x1_0 d)
    (Host.gather gather_S50000x64_S800000x1_S800000x64_1_0_n_n_0_1_164 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- An array with row i multiplied by entry i of a per-node vector. -/
def scaleRows (MS : (⟨S50000x64, .f32⟩ : BufTy).Contents (Elt F)) (f : (⟨S50000, .f32⟩ : BufTy).Contents (Elt F)) :
    (⟨S50000x64, .f32⟩ : BufTy).Contents (Elt F) :=
  mulf (F := F) (φ := .f32) MS
    (broadcastInDim S50000x64 ![0, 1] bcast_S50000x1_S50000x64_0_1 (broadcastInDim S50000x1 ![0] bcast_S50000_S50000x1_0 f))

/-- The aggregated features: the neighbour sums, row i times node i's factor. -/
def aggOf (X : (⟨S50000x64, .f32⟩ : BufTy).Contents (Elt F)) (s d : (⟨S800000, .i32⟩ : BufTy).Contents (Elt F))
    (f : (⟨S50000, .f32⟩ : BufTy).Contents (Elt F)) : (⟨S50000x64, .f32⟩ : BufTy).Contents (Elt F) :=
  scaleRows (sumOf X s d) f

/-! ## Each line of host operations over an arbitrary valuation -/

section Lines
variable (W : Valuation τ sig (Elt F))

/-- The first line: the edge rows. -/
theorem line0_v1 : StableHlo.after (hostOps0 (F := F)) W (Proc.devRef .tc main_v1) = srcRow (W (Proc.devRef .tc main_arg1)) := by
  dsimp only [hostOps0]; after_results_simp; rfl
theorem line0_v3 : StableHlo.after (hostOps0 (F := F)) W (Proc.devRef .tc main_v3) = dstRow (W (Proc.devRef .tc main_arg1)) := by
  dsimp only [hostOps0]; after_results_simp; rfl
/-- The first line: the degree's comparison with zero, the quotient 1 / max(degree, 1), and the zero. -/
theorem line0_v9 : StableHlo.after (hostOps0 (F := F)) W (Proc.devRef .tc main_v9)
    = cmpf (F := F) .ogt (degreeOf (dstRow (W (Proc.devRef .tc main_arg1)))) (broadcastInDim S50000 ![] bcast_S_S50000 (constant (F := F) S_ .f32 0x00000000#32)) := by
  dsimp only [hostOps0]; after_results_simp; rfl
theorem line0_v13 : StableHlo.after (hostOps0 (F := F)) W (Proc.devRef .tc main_v13)
    = Host.divf (F := F) (broadcastInDim S50000 ![] bcast_S_S50000 (constant (F := F) S_ .f32 0x3F800000#32))
        (maximumf (degreeOf (dstRow (W (Proc.devRef .tc main_arg1)))) (broadcastInDim S50000 ![] bcast_S_S50000 (constant (F := F) S_ .f32 0x3F800000#32))) := by
  dsimp only [hostOps0]; after_results_simp; rfl
theorem line0_cst4 : StableHlo.after (hostOps0 (F := F)) W (Proc.devRef .tc main_cst_4) = constant (F := F) S_ .f32 0x00000000#32 := by
  dsimp only [hostOps0]; after_results_simp
theorem line0_arg0 : StableHlo.after (hostOps0 (F := F)) W (Proc.devRef .tc main_arg0) = W (Proc.devRef .tc main_arg0) := by
  dsimp only [hostOps0]; after_results_simp

/-- The second line (the selection of the factor): the factor from the comparison, the quotient and the zero. -/
theorem line1_v14 : StableHlo.after (hostOps0_1 (F := F)) W (Proc.devRef .tc main_v14)
    = select (W (Proc.devRef .tc main_v9) : (⟨S50000, .i1⟩ : BufTy).Contents (Elt F)) (W (Proc.devRef .tc main_v13) : (⟨S50000, .f32⟩ : BufTy).Contents (Elt F))
        (broadcastInDim S50000 ![] bcast_S_S50000 (id (W (Proc.devRef .tc main_cst_4) : (⟨S_, .f32⟩ : BufTy).Contents (Elt F)))) := by
  dsimp only [hostOps0_1]; after_results_simp; rfl
theorem line1_v1 : StableHlo.after (hostOps0_1 (F := F)) W (Proc.devRef .tc main_v1) = W (Proc.devRef .tc main_v1) := by
  dsimp only [hostOps0_1]; after_results_simp
theorem line1_v3 : StableHlo.after (hostOps0_1 (F := F)) W (Proc.devRef .tc main_v3) = W (Proc.devRef .tc main_v3) := by
  dsimp only [hostOps0_1]; after_results_simp
theorem line1_arg0 : StableHlo.after (hostOps0_1 (F := F)) W (Proc.devRef .tc main_arg0) = W (Proc.devRef .tc main_arg0) := by
  dsimp only [hostOps0_1]; after_results_simp

/-- The third line: the aggregated input features, and what it leaves in place. -/
theorem line2_v27 : StableHlo.after (hostOps0_2 (F := F)) W (Proc.devRef .tc main_v27)
    = aggOf (W (Proc.devRef .tc main_arg0)) (W (Proc.devRef .tc main_v1)) (W (Proc.devRef .tc main_v3)) (W (Proc.devRef .tc main_v14)) := by
  dsimp only [hostOps0_2]; after_results_simp; rfl
theorem line2_v1 : StableHlo.after (hostOps0_2 (F := F)) W (Proc.devRef .tc main_v1) = W (Proc.devRef .tc main_v1) := by
  dsimp only [hostOps0_2]; after_results_simp
theorem line2_v3 : StableHlo.after (hostOps0_2 (F := F)) W (Proc.devRef .tc main_v3) = W (Proc.devRef .tc main_v3) := by
  dsimp only [hostOps0_2]; after_results_simp
theorem line2_v14 : StableHlo.after (hostOps0_2 (F := F)) W (Proc.devRef .tc main_v14) = W (Proc.devRef .tc main_v14) := by
  dsimp only [hostOps0_2]; after_results_simp

/-- The fourth line: the aggregated first-layer output, the bias row, and what it leaves in place. -/
theorem line3_v42 : StableHlo.after (hostOps1 (F := F)) W (Proc.devRef .tc main_v42)
    = aggOf (W (Proc.devRef .tc main_v29)) (W (Proc.devRef .tc main_v1)) (W (Proc.devRef .tc main_v3)) (W (Proc.devRef .tc main_v14)) := by
  dsimp only [hostOps1]; after_results_simp; rfl
theorem line3_v43 : StableHlo.after (hostOps1 (F := F)) W (Proc.devRef .tc main_v43)
    = shapeCast S1x32 (W (Proc.devRef .tc main_arg7) : (⟨S32, .f32⟩ : BufTy).Contents (Elt F)) shapeCasts_S32_S1x32 := by
  dsimp only [hostOps1]; after_results_simp; rfl
theorem line3_v29 : StableHlo.after (hostOps1 (F := F)) W (Proc.devRef .tc main_v29) = W (Proc.devRef .tc main_v29) := by
  dsimp only [hostOps1]; after_results_simp
theorem line3_arg5 : StableHlo.after (hostOps1 (F := F)) W (Proc.devRef .tc main_arg5) = W (Proc.devRef .tc main_arg5) := by
  dsimp only [hostOps1]; after_results_simp
theorem line3_arg6 : StableHlo.after (hostOps1 (F := F)) W (Proc.devRef .tc main_arg6) = W (Proc.devRef .tc main_arg6) := by
  dsimp only [hostOps1]; after_results_simp

end Lines

/-! ## The lines composed from the launch memory -/

/-- The neighbour sums of `X` along the edges `e`. -/
def nsum (X : (⟨S50000x64, .f32⟩ : BufTy).Contents (Elt F)) (e : (⟨S2x800000, .i32⟩ : BufTy).Contents (Elt F)) :
    (⟨S50000x64, .f32⟩ : BufTy).Contents (Elt F) := sumOf X (srcRow e) (dstRow e)

/-- The in-degrees along the edges `e`. -/
def deg (e : (⟨S2x800000, .i32⟩ : BufTy).Contents (Elt F)) : (⟨S50000, .f32⟩ : BufTy).Contents (Elt F) :=
  degreeOf (dstRow e)

/-- The aggregate of `X` along the edges `e`: the neighbour sums, row i times node i's factor. -/
def agg (X : (⟨S50000x64, .f32⟩ : BufTy).Contents (Elt F)) (e : (⟨S2x800000, .i32⟩ : BufTy).Contents (Elt F)) :
    (⟨S50000x64, .f32⟩ : BufTy).Contents (Elt F) := aggOf X (srcRow e) (dstRow e) (factorOf (deg e))

section Compose
variable (m : (ℓ : Loc nD τ sig) → Buf (Elt F) ℓ) (ρ : Dev nD → PrngReg)

theorem W2_v1 (c : Dev nD) : W2 m ρ c (Proc.devRef .tc main_v1) = srcRow (m ((c : Thread nD τ).loc main_arg1)) :=
  (line1_v1 (W1 m ρ c)).trans (line0_v1 (W0 m ρ c))
theorem W2_v3 (c : Dev nD) : W2 m ρ c (Proc.devRef .tc main_v3) = dstRow (m ((c : Thread nD τ).loc main_arg1)) :=
  (line1_v3 (W1 m ρ c)).trans (line0_v3 (W0 m ρ c))
theorem W2_arg0 (c : Dev nD) : W2 m ρ c (Proc.devRef .tc main_arg0) = m ((c : Thread nD τ).loc main_arg0) :=
  (line1_arg0 (W1 m ρ c)).trans (line0_arg0 (W0 m ρ c))
theorem W2_v14 (c : Dev nD) : W2 m ρ c (Proc.devRef .tc main_v14) = factorOf (deg (m ((c : Thread nD τ).loc main_arg1))) := by
  refine (line1_v14 (W1 m ρ c)).trans ?_
  have h9 := line0_v9 (W0 m ρ c)
  have h13 := line0_v13 (W0 m ρ c)
  have h4 := line0_cst4 (W0 m ρ c)
  show select (StableHlo.after hostOps0 (W0 m ρ c) (Proc.devRef .tc main_v9)) (StableHlo.after hostOps0 (W0 m ρ c) (Proc.devRef .tc main_v13))
      (broadcastInDim S50000 ![] bcast_S_S50000 (id (StableHlo.after hostOps0 (W0 m ρ c) (Proc.devRef .tc main_cst_4)))) = _
  rw [h9, h13, h4]
  rfl

theorem W3_v1 (c : Dev nD) : W3 m ρ c (Proc.devRef .tc main_v1) = srcRow (m ((c : Thread nD τ).loc main_arg1)) :=
  (line2_v1 (W2 m ρ c)).trans (W2_v1 m ρ c)
theorem W3_v3 (c : Dev nD) : W3 m ρ c (Proc.devRef .tc main_v3) = dstRow (m ((c : Thread nD τ).loc main_arg1)) :=
  (line2_v3 (W2 m ρ c)).trans (W2_v3 m ρ c)
theorem W3_v14 (c : Dev nD) : W3 m ρ c (Proc.devRef .tc main_v14) = factorOf (deg (m ((c : Thread nD τ).loc main_arg1))) :=
  (line2_v14 (W2 m ρ c)).trans (W2_v14 m ρ c)

/-- The first region is entered with the aggregate of the input features. -/
theorem V3_v27 (c : Dev nD) : V3 m ρ c main_v27 = agg (m ((c : Thread nD τ).loc main_arg0)) (m ((c : Thread nD τ).loc main_arg1)) := by
  refine (line2_v27 (W2 m ρ c)).trans ?_
  rw [W2_arg0 m ρ c, W2_v1 m ρ c, W2_v3 m ρ c, W2_v14 m ρ c]
  rfl

theorem V3_v28 (c : Dev nD) : V3 m ρ c main_v28 = shapeCast S1x64 (m ((c : Thread nD τ).loc main_arg4)) shapeCasts_S64_S1x64 := by
  dsimp only [V3, W3, W2, W1, hostOps0, hostOps0_1, hostOps0_2]
  after_results_simp <;> rfl
theorem V3_arg0 (c : Dev nD) : V3 m ρ c main_arg0 = m ((c : Thread nD τ).loc main_arg0) := by
  dsimp only [V3, W3, W2, W1, hostOps0, hostOps0_1, hostOps0_2]
  after_results_simp <;> rfl
theorem V3_arg2 (c : Dev nD) : V3 m ρ c main_arg2 = m ((c : Thread nD τ).loc main_arg2) := by
  dsimp only [V3, W3, W2, W1, hostOps0, hostOps0_1, hostOps0_2]
  after_results_simp <;> rfl
theorem V3_arg3 (c : Dev nD) : V3 m ρ c main_arg3 = m ((c : Thread nD τ).loc main_arg3) := by
  dsimp only [V3, W3, W2, W1, hostOps0, hostOps0_1, hostOps0_2]
  after_results_simp <;> rfl
theorem W3_arg5 (c : Dev nD) : W3 m ρ c (Proc.devRef .tc main_arg5) = m ((c : Thread nD τ).loc main_arg5) := by
  dsimp only [W3, W2, W1, hostOps0, hostOps0_1, hostOps0_2]
  after_results_simp <;> rfl
theorem W3_arg6 (c : Dev nD) : W3 m ρ c (Proc.devRef .tc main_arg6) = m ((c : Thread nD τ).loc main_arg6) := by
  dsimp only [W3, W2, W1, hostOps0, hostOps0_1, hostOps0_2]
  after_results_simp <;> rfl
theorem W3_arg7 (c : Dev nD) : W3 m ρ c (Proc.devRef .tc main_arg7) = m ((c : Thread nD τ).loc main_arg7) := by
  dsimp only [W3, W2, W1, hostOps0, hostOps0_1, hostOps0_2]
  after_results_simp <;> rfl

theorem W4_v29 (c : Dev nD) : W4 m ρ c (Proc.devRef .tc main_v29) = (dat0 (V3 m ρ) c).arrAt 5 cfg0.N := W4_arr m ρ c 5
theorem W4_v1 (c : Dev nD) : W4 m ρ c (Proc.devRef .tc main_v1) = srcRow (m ((c : Thread nD τ).loc main_arg1)) :=
  (W4_of_ne m ρ c main_v1 (by decide)).trans (W3_v1 m ρ c)
theorem W4_v3 (c : Dev nD) : W4 m ρ c (Proc.devRef .tc main_v3) = dstRow (m ((c : Thread nD τ).loc main_arg1)) :=
  (W4_of_ne m ρ c main_v3 (by decide)).trans (W3_v3 m ρ c)
theorem W4_v14 (c : Dev nD) : W4 m ρ c (Proc.devRef .tc main_v14) = factorOf (deg (m ((c : Thread nD τ).loc main_arg1))) :=
  (W4_of_ne m ρ c main_v14 (by decide)).trans (W3_v14 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-- The second region is entered with the first region's output array and its aggregate. -/
theorem V5_v29 (c : Dev nD) : V5 m ρ c main_v29 = (dat0 (V3 m ρ) c).arrAt 5 cfg0.N :=
  (line3_v29 (W4 m ρ c)).trans (W4_v29 m ρ c)
theorem V5_v42 (c : Dev nD) : V5 m ρ c main_v42 = agg ((dat0 (V3 m ρ) c).arrAt 5 cfg0.N) (m ((c : Thread nD τ).loc main_arg1)) := by
  refine (line3_v42 (W4 m ρ c)).trans ?_
  rw [W4_v29 m ρ c, W4_v1 m ρ c, W4_v3 m ρ c, W4_v14 m ρ c]
  rfl
theorem V5_arg5 (c : Dev nD) : V5 m ρ c main_arg5 = m ((c : Thread nD τ).loc main_arg5) :=
  (line3_arg5 (W4 m ρ c)).trans (W4_arg5 m ρ c)
theorem V5_arg6 (c : Dev nD) : V5 m ρ c main_arg6 = m ((c : Thread nD τ).loc main_arg6) :=
  (line3_arg6 (W4 m ρ c)).trans (W4_arg6 m ρ c)
theorem V5_v43 (c : Dev nD) : V5 m ρ c main_v43 = shapeCast S1x32 (m ((c : Thread nD τ).loc main_arg7)) shapeCasts_S32_S1x32 := by
  refine (line3_v43 (W4 m ρ c)).trans ?_
  rw [W4_arg7 m ρ c]

end Compose

end Cert.KernelIdeal.HostK

end
-- ==== Proof.LibPlainDot.lean ====
/-
  A plain two-dimensional contraction read as a sum over the contracted extent.

  A dot of an [M, K] operand with a [K, N] operand contracts the left operand's second axis with the right
  operand's first. Its contraction index has one coordinate, so the sum over contraction indices is a sum over
  `k : Fin K`, and the operands are read at (row, k) and (k, column). The four coordinate facts are hypotheses:
  for a record with literal dimension lists each of them holds by computation.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M, K] × [K, N] dot at output index `j`, re-indexed by the one contracted
    coordinate: the left operand at (j 0, k) times the right operand at (k, j 1), summed over `k : Fin K`. -/
theorem plain_sum {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : (⟨2, ![M, K]⟩ : Shape).Idx → EReal) (rhs : (⟨2, ![K, N]⟩ : Shape).Idx → EReal) (j : (⟨2, ![M, N]⟩ : Shape).Idx) :
    ∑ k : D.contr.Idx, lhs (D.lhsIdx j k) * rhs (D.rhsIdx j k) = ∑ k : Fin K, lhs (ix2 (j 0) k) * rhs (ix2 k (j 1)) := by
  rw [← Equiv.sum_comp (contrEquiv1 D K hr hs).symm]
  refine Finset.sum_congr rfl fun k _ => ?_
  have e1 : D.lhsIdx j ((contrEquiv1 D K hr hs).symm k) = ix2 (j 0) k := by
    funext a; apply Fin.ext
    match a with
    | ⟨0, _⟩ => exact hl0 j _
    | ⟨1, _⟩ => exact (hl1 j _).trans (contrEquiv1_symm_val D K hr hs k)
  have e2 : D.rhsIdx j ((contrEquiv1 D K hr hs).symm k) = ix2 k (j 1) := by
    funext a; apply Fin.ext
    match a with
    | ⟨0, _⟩ => exact (hr0 j _).trans (contrEquiv1_symm_val D K hr hs k)
    | ⟨1, _⟩ => exact hr1 j _
  exact congrArg₂ (fun a b => lhs a * rhs b) e1 e2

/-- A matrix unit's product into the zero accumulator, at the exact values, is that sum. -/
theorem matmul_zero_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![M, K]⟩ φ₁) (rhs : FVec Ideal ⟨2, ![K, N]⟩ φ₂) (j : (⟨2, ![M, N]⟩ : Shape).Idx) :
    FloatOps.matmul D prec lhs rhs (constant ⟨2, ![M, N]⟩ .f32 0x00000000#32) j = ∑ k : Fin K, lhs (ix2 (j 0) k) * rhs (ix2 k (j 1)) :=
  (Ideal.matmul_constant_zero_apply D prec lhs rhs j).trans (plain_sum D hr hs hl0 hl1 hr0 hr1 lhs rhs j)

/-- The host's dot_general, at the exact values, is the same sum. -/
theorem dotGeneral_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (sched : HostSchedule) (lhs : FVec Ideal ⟨2, ![M, K]⟩ φ₁) (rhs : FVec Ideal ⟨2, ![K, N]⟩ φ₂)
    (j : (⟨2, ![M, N]⟩ : Shape).Idx) :
    FloatOps.dotGeneral D prec sched lhs rhs j = ∑ k : Fin K, lhs (ix2 (j 0) k) * rhs (ix2 k (j 1)) :=
  (Ideal.dotGeneral_apply D prec sched lhs rhs j).trans (plain_sum D hr hs hl0 hl1 hr0 hr1 lhs rhs j)

end Cert.LibPlainDot

end
-- ==== Proof.Body.lean ====
/-
  What one grid point's body computes, entry by entry.

  The first kernel's body reads a block of 5000 rows of the node features X and of the neighbour means A, the
  two whole weight matrices and the bias row, and stores max(A · Wn + X · Wr + b, 0): entry (p, q) of the stored
  block is the larger of zero and Σₖ A(p, k) · Wn(k, q) + Σₖ X(p, k) · Wr(k, q) + b(0, q). The operands are
  rounded to a narrower float format before the two products; on the extended reals a change of format is the
  identity, and a product into the zero accumulator is the plain sum over the contracted axis.
  The second kernel's body is the same map to 32 columns, without the maximum.
-/
import proofs.«110673_j54065048323043_1_alg».proof.Proof.Gen.KernelIdeal.Frame
import proofs.«110673_j54065048323043_1_alg».proof.Proof.LibPlainDot
import Idealize.ShloMosaic.Lib.Pipeline.Value
import Idealize.ShloMosaic.Lib.ValueLayout
import Idealize.ShloMosaic.Lib.ValueIdx

noncomputable section

namespace Cert.KernelIdeal.Body

open Cert.KernelIdeal Cert.KernelIdeal.Gen Idealize.ShloMosaic Idealize.ShloMosaic.ValueIdx

/-- The offset of a store or load at the origin of its buffer. -/
theorem hz : (![0, 0] : Fin 2 → Nat) = fun _ => 0 := funext fun a => by fin_cases a <;> rfl

/-- A product of a 5000 × 64 block with a 64 × 64 matrix into the zero accumulator, at entry (p, q), is the sum
    over the 64 contracted positions. -/
theorem mm64 {φ₁ φ₂ : FTy} (a : FVec Ideal S5000x64 φ₁) (b : FVec Ideal S64x64 φ₂) (p : Fin 5000) (q : Fin 64) :
    FloatOps.matmul dot_S5000x64_S64x64_S5000x64_1_0_0_1_n_n none a b (constant S5000x64 .f32 0x00000000#32) (ix2 p q)
      = ∑ k : Fin 64, a (ix2 p k) * b (ix2 k q) :=
  Cert.LibPlainDot.matmul_zero_plain dot_S5000x64_S64x64_S5000x64_1_0_0_1_n_n rfl rfl
    (fun _ _ => rfl) (fun _ _ => rfl) (fun _ _ => rfl) (fun _ _ => rfl) none a b (ix2 p q)

/-- The same for a 64 × 32 matrix. -/
theorem mm32 {φ₁ φ₂ : FTy} (a : FVec Ideal S5000x64 φ₁) (b : FVec Ideal S64x32 φ₂) (p : Fin 5000) (q : Fin 32) :
    FloatOps.matmul dot_S5000x64_S64x32_S5000x32_1_0_0_1_n_n none a b (constant S5000x32 .f32 0x00000000#32) (ix2 p q)
      = ∑ k : Fin 64, a (ix2 p k) * b (ix2 k q) :=
  Cert.LibPlainDot.matmul_zero_plain dot_S5000x64_S64x32_S5000x32_1_0_0_1_n_n rfl rfl
    (fun _ _ => rfl) (fun _ _ => rfl) (fun _ _ => rfl) (fun _ _ => rfl) none a b (ix2 p q)

/-- The first body's stored value at entry (p, q). -/
theorem pay0_apply (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q)
      = max ((∑ k : Fin 64, x1 (ix2 p k) * x2 (ix2 k q) + ∑ k : Fin 64, x0 (ix2 p k) * x3 (ix2 k q)) + x4 (ix2 (0 : Fin 1) q))
          (Ideal.ofBits .f32 0x00000000#32) := by
  unfold k0_pay1
  have e1 : matmul (F := Ideal) dot_S5000x64_S64x64_S5000x64_1_0_0_1_n_n none
        (truncf .bf16 (shapeCast S5000x64 x1 shapeCasts_S5000x64_S5000x64) bitsLt_bf16_f32) (truncf .bf16 x2 bitsLt_bf16_f32)
        (constant S5000x64 .f32 0x00000000#32) (ix2 p q) = ∑ k : Fin 64, x1 (ix2 p k) * x2 (ix2 k q) := by
    rw [shapeCast_self]
    exact mm64 (truncf .bf16 x1 bitsLt_bf16_f32) (truncf .bf16 x2 bitsLt_bf16_f32) p q
  have e2 : matmul (F := Ideal) dot_S5000x64_S64x64_S5000x64_1_0_0_1_n_n none
        (truncf .bf16 x0 bitsLt_bf16_f32) (truncf .bf16 x3 bitsLt_bf16_f32)
        (constant S5000x64 .f32 0x00000000#32) (ix2 p q) = ∑ k : Fin 64, x0 (ix2 p k) * x3 (ix2 k q) :=
    mm64 (truncf .bf16 x0 bitsLt_bf16_f32) (truncf .bf16 x3 bitsLt_bf16_f32) p q
  have e3 : broadcastTo S5000x64 (shapeCast S1x64 (shapeCast S1x64 x4 shapeCasts_S1x64_S1x64) shapeCasts_S1x64_S1x64) broadcasts_S1x64_S5000x64 (ix2 p q)
      = x4 (ix2 (0 : Fin 1) q) := by
    rw [shapeCast_self, shapeCast_self]
    exact broadcastTo_1b_ab_apply x4 broadcasts_S1x64_S5000x64 p q
  exact congrArg₂ max (congrArg₂ (· + ·) (congrArg₂ (· + ·) e1 e2) e3) rfl

/-- The second body's stored value at entry (p, q). -/
theorem pay1_apply (x0 x1 : Vec Ideal S5000x64 .f32) (x2 x3 : Vec Ideal S64x32 .f32) (x4 : Vec Ideal S1x32 .f32)
    (p : Fin 5000) (q : Fin 32) :
    k1_pay1 (F := Ideal) x0 x1 x2 x3 x4 (ix2 p q)
      = (∑ k : Fin 64, x1 (ix2 p k) * x2 (ix2 k q) + ∑ k : Fin 64, x0 (ix2 p k) * x3 (ix2 k q)) + x4 (ix2 (0 : Fin 1) q) := by
  unfold k1_pay1
  have e1 : matmul (F := Ideal) dot_S5000x64_S64x32_S5000x32_1_0_0_1_n_n none
        (truncf .bf16 (shapeCast S5000x64 x1 shapeCasts_S5000x64_S5000x64) bitsLt_bf16_f32) (truncf .bf16 x2 bitsLt_bf16_f32)
        (constant S5000x32 .f32 0x00000000#32) (ix2 p q) = ∑ k : Fin 64, x1 (ix2 p k) * x2 (ix2 k q) := by
    rw [shapeCast_self]
    exact mm32 (truncf .bf16 x1 bitsLt_bf16_f32) (truncf .bf16 x2 bitsLt_bf16_f32) p q
  have e2 : matmul (F := Ideal) dot_S5000x64_S64x32_S5000x32_1_0_0_1_n_n none
        (truncf .bf16 (shapeCast S5000x64 x0 shapeCasts_S5000x64_S5000x64) bitsLt_bf16_f32) (truncf .bf16 x3 bitsLt_bf16_f32)
        (constant S5000x32 .f32 0x00000000#32) (ix2 p q) = ∑ k : Fin 64, x0 (ix2 p k) * x3 (ix2 k q) := by
    rw [shapeCast_self]
    exact mm32 (truncf .bf16 x0 bitsLt_bf16_f32) (truncf .bf16 x3 bitsLt_bf16_f32) p q
  have e3 : broadcastTo S5000x32 (shapeCast S1x32 (shapeCast S1x32 x4 shapeCasts_S1x32_S1x32) shapeCasts_S1x32_S1x32) broadcasts_S1x32_S5000x32 (ix2 p q)
      = x4 (ix2 (0 : Fin 1) q) := by
    rw [shapeCast_self, shapeCast_self]
    exact broadcastTo_1b_ab_apply x4 broadcasts_S1x32_S5000x32 p q
  exact congrArg₂ (· + ·) (congrArg₂ (· + ·) e1 e2) e3

/-- The first region's output buffer after the body: its one store covers the buffer, so the buffer holds the
    stored value. -/
theorem out0_apply (x0 x1 : Vec Ideal S5000x64 .f32) (x2 x3 : Vec Ideal S64x64 .f32) (x4 : Vec Ideal S1x64 .f32)
    (p : Fin 5000) (q : Fin 64) :
    out0_5 (F := Ideal) x0 x1 x2 x3 x4 (ix2 p q)
      = max ((∑ k : Fin 64, x1 (ix2 p k) * x2 (ix2 k q) + ∑ k : Fin 64, x0 (ix2 p k) * x3 (ix2 k q)) + x4 (ix2 (0 : Fin 1) q))
          (Ideal.ofBits .f32 0x00000000#32) := by
  unfold out0_5
  rw [View.canon_unit_zero hz]
  simp only [View.ld_unit_zero (S := S5000x64) hz, View.ld_unit_zero (S := S64x64) hz, View.ld_unit_zero (S := S1x64) hz]
  exact pay0_apply x0 x1 x2 x3 x4 p q

/-- The second region's output buffer after the body. -/
theorem out1_apply (x0 x1 : Vec Ideal S5000x64 .f32) (x2 x3 : Vec Ideal S64x32 .f32) (x4 : Vec Ideal S1x32 .f32)
    (p : Fin 5000) (q : Fin 32) :
    out1_5 (F := Ideal) x0 x1 x2 x3 x4 (ix2 p q)
      = (∑ k : Fin 64, x1 (ix2 p k) * x2 (ix2 k q) + ∑ k : Fin 64, x0 (ix2 p k) * x3 (ix2 k q)) + x4 (ix2 (0 : Fin 1) q) := by
  unfold out1_5
  rw [View.canon_unit_zero hz]
  simp only [View.ld_unit_zero (S := S5000x64) hz, View.ld_unit_zero (S := S64x32) hz, View.ld_unit_zero (S := S1x32) hz]
  exact pay1_apply x0 x1 x2 x3 x4 p q

end Cert.KernelIdeal.Body

end
-- ==== Proof.Blocks.lean ====
/-
  From the grid points' blocks to the whole output array, for each of the two kernel regions, at any contents
  `V` of the buffers when the region is entered.

  A region has ten grid points; point t works on rows 5000·t … 5000·t + 4999: it fetches those rows of the two
  row-blocked operands, the whole weight matrices and the bias row, and writes those rows of the output back.
  So what point t writes back is rows 5000·t … of ONE function of the operand arrays — the layer map of
  Spec.lean — and, since every row lies in the block of the point (row / 5000), the output array after the
  region is that function.
-/
import proofs.«110673_j54065048323043_1_alg».proof.Proof.Body
import proofs.«110673_j54065048323043_1_alg».proof.Proof.Spec

set_option maxRecDepth 16384

noncomputable section

namespace Cert.KernelIdeal.Blocks

open Cert.KernelIdeal Cert.KernelIdeal.Gen Cert.KernelIdeal.Body Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## Region 0 -/

/-- The first layer's output as one function of the operand arrays the region finds: the rectified layer map
    of the neighbour means (`main_v27`), the features, the two weight matrices and the bias row. -/
def layer0 (c : Dev nD) : S50000x64.Idx → EReal :=
  Cert.Sage.relu (Cert.Sage.dense (M := 50000) (K := 64) (D := 64) (V c main_v27) (V c main_arg0) (V c main_arg2) (V c main_arg3)
    (fun i => V c main_v28 (ix2 (0 : Fin 1) (i 0))))

/-- The index maps over the grid: the row-blocked windows and the output are at block (t, 0), the others at (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- Row p of point t's block is row 5000·t + p of the array. -/
def row0 (t : Fin cfg0.N) (p : Fin 5000) : Fin 50000 := ⟨t.val * 5000 + p.val, by have := (idx0 t).2.2.2.2.2.2.2.2.2.2.2.2; have := p.isLt; omega⟩

theorem blk0_0 (c : Dev nD) (t : Fin cfg0.N) (p : Fin 5000) (k : Fin 64) :
    iblk0 V c 0 t (ix2 p k) = V c main_arg0 (ix2 (row0 t p) k) := by
  show V c main_arg0 (((cfg0.win 0).blk t).view.emb (ix2 p k)) = V c main_arg0 (ix2 (row0 t p) k)
  refine congrArg (V c main_arg0) (funext fun a => Fin.ext ?_)
  obtain ⟨e0, e1, -⟩ := idx0 t
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

theorem blk0_1 (c : Dev nD) (t : Fin cfg0.N) (p : Fin 5000) (k : Fin 64) :
    iblk0 V c 1 t (ix2 p k) = V c main_v27 (ix2 (row0 t p) k) := by
  show V c main_v27 (((cfg0.win 1).blk t).view.emb (ix2 p k)) = V c main_v27 (ix2 (row0 t p) k)
  refine congrArg (V c main_v27) (funext fun a => Fin.ext ?_)
  obtain ⟨-, -, e0, e1, -⟩ := idx0 t
  match a with
  | ⟨0, _⟩ => show win0_1.index t (0 : Fin 2) * 5000 + 1 * p.val = t.val * 5000 + p.val; rw [e0]; omega
  | ⟨1, _⟩ => show win0_1.index t (1 : Fin 2) * 64 + 1 * k.val = k.val; rw [e1]; omega

theorem blk0_2 (c : Dev nD) (t : Fin cfg0.N) (k : Fin 64) (q : Fin 64) :
    iblk0 V c 2 t (ix2 k q) = V c main_arg2 (ix2 k q) := by
  show V c main_arg2 (((cfg0.win 2).blk t).view.emb (ix2 k q)) = V c main_arg2 (ix2 k q)
  refine congrArg (V c main_arg2) (funext fun a => Fin.ext ?_)
  obtain ⟨-, -, -, -, e0, e1, -⟩ := idx0 t
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem blk0_3 (c : Dev nD) (t : Fin cfg0.N) (k : Fin 64) (q : Fin 64) :
    iblk0 V c 3 t (ix2 k q) = V c main_arg3 (ix2 k q) := by
  show V c main_arg3 (((cfg0.win 3).blk t).view.emb (ix2 k q)) = V c main_arg3 (ix2 k q)
  refine congrArg (V c main_arg3) (funext fun a => Fin.ext ?_)
  obtain ⟨-, -, -, -, -, -, e0, e1, -⟩ := idx0 t
  match a with
  | ⟨0, _⟩ => show win0_3.index t (0 : Fin 2) * 64 + 1 * k.val = k.val; rw [e0]; omega
  | ⟨1, _⟩ => show win0_3.index t (1 : Fin 2) * 64 + 1 * q.val = q.val; rw [e1]; omega

theorem blk0_4 (c : Dev nD) (t : Fin cfg0.N) (q : Fin 64) :
    iblk0 V c 4 t (ix2 (0 : Fin 1) q) = V c main_v28 (ix2 (0 : Fin 1) q) := by
  show V c main_v28 (((cfg0.win 4).blk t).view.emb (ix2 (0 : Fin 1) q)) = V c main_v28 (ix2 (0 : Fin 1) q)
  refine congrArg (V c main_v28) (funext fun a => Fin.ext ?_)
  obtain ⟨-, -, -, -, -, -, -, -, e0, e1, -⟩ := idx0 t
  match a with
  | ⟨0, _⟩ => show win0_4.index t (0 : Fin 2) * 1 + 1 * 0 = 0; rw [e0]
  | ⟨1, _⟩ => show win0_4.index t (1 : Fin 2) * 64 + 1 * q.val = q.val; rw [e1]; omega

theorem emb0_5 (t : Fin cfg0.N) (p : Fin 5000) (q : Fin 64) :
    ((cfg0.win 5).blk t).view.emb (ix2 p q) = ix2 (row0 t p) q := by
  funext a; apply Fin.ext
  obtain ⟨-, -, -, -, -, -, -, -, -, -, e0, e1, -⟩ := idx0 t
  match a with
  | ⟨0, _⟩ => show win0_5.index t (0 : Fin 2) * 5000 + 1 * p.val = t.val * 5000 + p.val; rw [e0]; omega
  | ⟨1, _⟩ => show win0_5.index t (1 : Fin 2) * 64 + 1 * q.val = q.val; rw [e1]; omega

/-- What point t writes back is block t of the layer map of the operand arrays. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  funext j
  obtain ⟨p, q, rfl⟩ : ∃ (p : Fin 5000) (q : Fin 64), j = ix2 p q := ⟨j 0, j 1, eq_ix2 j⟩
  show out0_5 (iblk0 V c 0 t) (iblk0 V c 1 t) (iblk0 V c 2 t) (iblk0 V c 3 t) (iblk0 V c 4 t) (ix2 p q)
    = layer0 V c (((cfg0.win 5).blk t).view.emb (ix2 p q))
  rw [emb0_5 t p q]
  refine (out0_apply (iblk0 V c 0 t) (iblk0 V c 1 t) (iblk0 V c 2 t) (iblk0 V c 3 t) (iblk0 V c 4 t) p q).trans ?_
  simp only [blk0_0 V c t, blk0_1 V c t, blk0_2 V c t, blk0_3 V c t, blk0_4 V c t]
  rfl

/-- An index is in point t's output block iff its coordinates are in the block's ranges. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v29).slice (win0_5.rect t)).set ↔ _
  rw [View.set_slice_whole, Rect.mem_set_unit]
  exact Iff.rfl

/-- Every index of the output array is in the block of the point (row / 5000). -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, -, -, -, -, e0, e1, -⟩ := idx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

/-- The first region's output array after the region is the layer map of the operand arrays. -/
theorem arr0 (c : Dev nD) : (dat0 V c).arrAt 5 cfg0.N = layer0 V c :=
  (dat0 V c).arrAt_eq_of_cover 5 (layer0 V c) (fun t _ => flushed0 V c t) cover0

/-! ## Region 1 -/

/-- The second layer's output as one function of the operand arrays the region finds: the layer map of the
    neighbour means (`main_v42`), the first layer's output (`main_v29`), the two weight matrices and the bias row. -/
def layer1 (c : Dev nD) : S50000x32.Idx → EReal :=
  Cert.Sage.dense (M := 50000) (K := 64) (D := 32) (V c main_v42) (V c main_v29) (V c main_arg5) (V c main_arg6)
    (fun i => V c main_v43 (ix2 (0 : Fin 1) (i 0)))

/-- The index maps over the grid: the row-blocked windows and the output are at block (t, 0), the others at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- Row p of point t's block is row 5000·t + p of the array. -/
def row1 (t : Fin cfg1.N) (p : Fin 5000) : Fin 50000 := ⟨t.val * 5000 + p.val, by have := (idx1 t).2.2.2.2.2.2.2.2.2.2.2.2; have := p.isLt; omega⟩

theorem blk1_0 (c : Dev nD) (t : Fin cfg1.N) (p : Fin 5000) (k : Fin 64) :
    iblk1 V c 0 t (ix2 p k) = V c main_v29 (ix2 (row1 t p) k) := by
  show V c main_v29 (((cfg1.win 0).blk t).view.emb (ix2 p k)) = V c main_v29 (ix2 (row1 t p) k)
  refine congrArg (V c main_v29) (funext fun a => Fin.ext ?_)
  obtain ⟨e0, e1, -⟩ := idx1 t
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem blk1_1 (c : Dev nD) (t : Fin cfg1.N) (p : Fin 5000) (k : Fin 64) :
    iblk1 V c 1 t (ix2 p k) = V c main_v42 (ix2 (row1 t p) k) := by
  show V c main_v42 (((cfg1.win 1).blk t).view.emb (ix2 p k)) = V c main_v42 (ix2 (row1 t p) k)
  refine congrArg (V c main_v42) (funext fun a => Fin.ext ?_)
  obtain ⟨-, -, e0, e1, -⟩ := idx1 t
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

theorem blk1_2 (c : Dev nD) (t : Fin cfg1.N) (k : Fin 64) (q : Fin 32) :
    iblk1 V c 2 t (ix2 k q) = V c main_arg5 (ix2 k q) := by
  show V c main_arg5 (((cfg1.win 2).blk t).view.emb (ix2 k q)) = V c main_arg5 (ix2 k q)
  refine congrArg (V c main_arg5) (funext fun a => Fin.ext ?_)
  obtain ⟨-, -, -, -, e0, e1, -⟩ := idx1 t
  match a with
  | ⟨0, _⟩ => show win1_2.index t (0 : Fin 2) * 64 + 1 * k.val = k.val; rw [e0]; omega
  | ⟨1, _⟩ => show win1_2.index t (1 : Fin 2) * 32 + 1 * q.val = q.val; rw [e1]; omega

theorem blk1_3 (c : Dev nD) (t : Fin cfg1.N) (k : Fin 64) (q : Fin 32) :
    iblk1 V c 3 t (ix2 k q) = V c main_arg6 (ix2 k q) := by
  show V c main_arg6 (((cfg1.win 3).blk t).view.emb (ix2 k q)) = V c main_arg6 (ix2 k q)
  refine congrArg (V c main_arg6) (funext fun a => Fin.ext ?_)
  obtain ⟨-, -, -, -, -, -, e0, e1, -⟩ := idx1 t
  match a with
  | ⟨0, _⟩ => show win1_3.index t (0 : Fin 2) * 64 + 1 * k.val = k.val; rw [e0]; omega
  | ⟨1, _⟩ => show win1_3.index t (1 : Fin 2) * 32 + 1 * q.val = q.val; rw [e1]; omega

theorem blk1_4 (c : Dev nD) (t : Fin cfg1.N) (q : Fin 32) :
    iblk1 V c 4 t (ix2 (0 : Fin 1) q) = V c main_v43 (ix2 (0 : Fin 1) q) := by
  show V c main_v43 (((cfg1.win 4).blk t).view.emb (ix2 (0 : Fin 1) q)) = V c main_v43 (ix2 (0 : Fin 1) q)
  refine congrArg (V c main_v43) (funext fun a => Fin.ext ?_)
  obtain ⟨-, -, -, -, -, -, -, -, e0, e1, -⟩ := idx1 t
  match a with
  | ⟨0, _⟩ => show win1_4.index t (0 : Fin 2) * 1 + 1 * 0 = 0; rw [e0]
  | ⟨1, _⟩ => show win1_4.index t (1 : Fin 2) * 32 + 1 * q.val = q.val; rw [e1]; omega

theorem emb1_5 (t : Fin cfg1.N) (p : Fin 5000) (q : Fin 32) :
    ((cfg1.win 5).blk t).view.emb (ix2 p q) = ix2 (row1 t p) q := by
  funext a; apply Fin.ext
  obtain ⟨-, -, -, -, -, -, -, -, -, -, e0, e1, -⟩ := idx1 t
  match a with
  | ⟨0, _⟩ => show win1_5.index t (0 : Fin 2) * 5000 + 1 * p.val = t.val * 5000 + p.val; rw [e0]; omega
  | ⟨1, _⟩ => show win1_5.index t (1 : Fin 2) * 32 + 1 * q.val = q.val; rw [e1]; omega

/-- What point t writes back is block t of the layer map of the operand arrays. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  funext j
  obtain ⟨p, q, rfl⟩ : ∃ (p : Fin 5000) (q : Fin 32), j = ix2 p q := ⟨j 0, j 1, eq_ix2 j⟩
  show out1_5 (iblk1 V c 0 t) (iblk1 V c 1 t) (iblk1 V c 2 t) (iblk1 V c 3 t) (iblk1 V c 4 t) (ix2 p q)
    = layer1 V c (((cfg1.win 5).blk t).view.emb (ix2 p q))
  rw [emb1_5 t p q]
  refine (out1_apply (iblk1 V c 0 t) (iblk1 V c 1 t) (iblk1 V c 2 t) (iblk1 V c 3 t) (iblk1 V c 4 t) p q).trans ?_
  simp only [blk1_0 V c t, blk1_1 V c t, blk1_2 V c t, blk1_3 V c t, blk1_4 V c t]
  rfl

/-- An index is in point t's output block iff its coordinates are in the block's ranges. -/
theorem mem_blk1 (t : Fin cfg1.N) (i : S50000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v44).slice (win1_5.rect t)).set ↔ _
  rw [View.set_slice_whole, Rect.mem_set_unit]
  exact Iff.rfl

/-- Every index of the output array is in the block of the point (row / 5000). -/
theorem cover1 (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  have hN : cfg1.N = 10 := N_1
  let t : Fin cfg1.N := ⟨(i 0).val / 5000, by rw [hN]; omega⟩
  obtain ⟨-, -, -, -, -, -, -, -, -, -, e0, e1, -⟩ := idx1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 32 ≤ (i 1).val ∧ (i 1).val < win1_5.index t (1 : Fin 2) * 32 + 32; rw [e1]; omega

/-- The second region's output array after the region is the layer map of the operand arrays. -/
theorem arr1 (c : Dev nD) : (dat1 V c).arrAt 5 cfg1.N = layer1 V c :=
  (dat1 V c).arrAt_eq_of_cover 5 (layer1 V c) (fun t _ => flushed1 V c t) cover1

end Cert.KernelIdeal.Blocks

end
-- ==== Proof.KernelValue.lean ====
/-
  The idealized kernel program's result array as the two-layer map of Spec.lean.

  The first region is entered with the input features X, their aggregate (the neighbour sums, row i times node
  i's factor), the first layer's weights and its bias as a row; it leaves H = max(A · Wn + X · Wr + b, 0) in its
  output array. The second region is entered with H, H's aggregate, the second layer's weights and bias, and leaves
  the second layer's affine map of them, which is the program's result. Row i of an aggregate is the mean of node
  i's in-neighbours (Spec.lean's law: the sum times the factor is the mean).
-/
import proofs.«110673_j54065048323043_1_alg».proof.Proof.HostK
import proofs.«110673_j54065048323043_1_alg».proof.Proof.Blocks
import Idealize.ShloMosaic.Lib.ValueLayout

set_option maxRecDepth 16384

noncomputable section

namespace Cert.KernelIdeal.KValue

open Cert.KernelIdeal Cert.KernelIdeal.Gen Cert.KernelIdeal.HostK Cert.KernelIdeal.Blocks
open Idealize.ShloMosaic Idealize.ShloMosaic.TcCoe Idealize.SL.Sem Idealize.ShloMosaic.StableHlo Idealize.ShloMosaic.ValueIdx

/-! ## The aggregate is the array of node-wise means -/

/-- The factor at node p, from the degree at node p. -/
theorem factorOf_apply (g : FVec Ideal S50000 .f32) (p : Fin 50000) :
    factorOf (F := Ideal) g (ix1 p)
      = Scalar.select (FloatOps.cmpf (F := Ideal) (φ := .f32) .ogt (g (ix1 p)) (Ideal.ofBits .f32 0x00000000#32))
          (Ideal.div (Ideal.ofBits .f32 0x3F800000#32) (max (g (ix1 p)) (Ideal.ofBits .f32 0x3F800000#32))) (Ideal.ofBits .f32 0x00000000#32) := rfl

/-- A per-node vector broadcast along the rows, at entry (p, q), is its value at node p. -/
theorem rowBroadcast_apply (f : FVec Ideal S50000 .f32) (p : Fin 50000) (q : Fin 64) :
    broadcastInDim S50000x64 ![0, 1] bcast_S50000x1_S50000x64_0_1 (broadcastInDim S50000x1 ![0] bcast_S50000_S50000x1_0 f) (ix2 p q) = f (ix1 p) := by
  refine (broadcastInDim_apply _ bcast_S50000x1_S50000x64_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  exact broadcastInDim_apply _ bcast_S50000_S50000x1_0 f (ix2 p (0 : Fin 1)) (ix1 p) (fun a => match a with
    | ⟨0, _⟩ => by show p.val = if (50000 : Nat) = 1 then 0 else p.val; rw [if_neg (by decide)])

/-- Row i of the sums times node i's factor is the mean of node i's in-neighbours. -/
theorem scaleRows_factor (MS : FVec Ideal S50000x64 .f32) (g : FVec Ideal S50000 .f32) :
    scaleRows (F := Ideal) MS (factorOf g) = Cert.Sage.meanRows (M := 50000) (K := 64) MS g := by
  funext i
  obtain ⟨p, q, rfl⟩ : ∃ (p : Fin 50000) (q : Fin 64), i = ix2 p q := ⟨i 0, i 1, eq_ix2 i⟩
  refine (congrArg (fun z : EReal => MS (ix2 p q) * z) ((rowBroadcast_apply (factorOf (F := Ideal) g) p q).trans (factorOf_apply g p))).trans ?_
  exact Cert.Sage.mul_factor_eq_mean (MS (ix2 p q)) (g (ix1 p))

/-- The aggregate of `X` is the array of node-wise means of its neighbour sums. -/
theorem agg_eq_mean (X : (⟨S50000x64, .f32⟩ : BufTy).Contents (Elt Ideal)) (e : (⟨S2x800000, .i32⟩ : BufTy).Contents (Elt Ideal)) :
    agg X e = Cert.Sage.meanRows (M := 50000) (K := 64) (nsum X e) (deg e) :=
  scaleRows_factor (nsum X e) (deg e)

/-- A bias vector cast to a row and read along the row is the vector. -/
theorem biasRow64 (b : FVec Ideal S64 .f32) :
    (fun i : (⟨1, ![64]⟩ : Shape).Idx => shapeCast S1x64 b shapeCasts_S64_S1x64 (ix2 (0 : Fin 1) (i 0))) = b := by
  funext i
  obtain ⟨q, rfl⟩ : ∃ q : Fin 64, i = ix1 q := ⟨i 0, eq_ix1 i⟩
  exact shapeCast_a_1a_apply b shapeCasts_S64_S1x64 (0 : Fin 1) q

theorem biasRow32 (b : FVec Ideal S32 .f32) :
    (fun i : (⟨1, ![32]⟩ : Shape).Idx => shapeCast S1x32 b shapeCasts_S32_S1x32 (ix2 (0 : Fin 1) (i 0))) = b := by
  funext i
  obtain ⟨q, rfl⟩ : ∃ q : Fin 32, i = ix1 q := ⟨i 0, eq_ix1 i⟩
  exact shapeCast_a_1a_apply b shapeCasts_S32_S1x32 (0 : Fin 1) q

/-! ## The two-layer map -/

/-- The first layer's output. -/
def hidden (x : FVec Ideal S50000x64 .f32) (e : (⟨S2x800000, .i32⟩ : BufTy).Contents (Elt Ideal))
    (w1n w1r : FVec Ideal S64x64 .f32) (b1 : FVec Ideal S64 .f32) : FVec Ideal S50000x64 .f32 :=
  Cert.Sage.relu (Cert.Sage.dense (M := 50000) (K := 64) (D := 64) (Cert.Sage.meanRows (M := 50000) (K := 64) (nsum x e) (deg e)) x w1n w1r b1)

/-- The program's result. -/
def result (x : FVec Ideal S50000x64 .f32) (e : (⟨S2x800000, .i32⟩ : BufTy).Contents (Elt Ideal))
    (w1n w1r : FVec Ideal S64x64 .f32) (b1 : FVec Ideal S64 .f32) (w2n w2r : FVec Ideal S64x32 .f32) (b2 : FVec Ideal S32 .f32) :
    FVec Ideal S50000x32 .f32 :=
  Cert.Sage.dense (M := 50000) (K := 64) (D := 32)
    (Cert.Sage.meanRows (M := 50000) (K := 64) (nsum (hidden x e w1n w1r b1) e) (deg e)) (hidden x e w1n w1r b1) w2n w2r b2

variable (m : (ℓ : Loc nD τ sig) → Buf (Elt Ideal) ℓ) (ρ : Dev nD → PrngReg)

/-- The first region leaves the first layer's output in its output array. -/
theorem region0 (c : Dev nD) : (dat0 (V3 m ρ) c).arrAt 5 cfg0.N
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  rw [arr0 (V3 m ρ) c]
  unfold layer0 hidden
  rw [V3_v27 m ρ c, V3_v28 m ρ c, V3_arg0 m ρ c, V3_arg2 m ρ c, V3_arg3 m ρ c, agg_eq_mean, biasRow64]

/-- The second region leaves the program's result in its output array. -/
theorem region1 (c : Dev nD) : (dat1 (V5 m ρ) c).arrAt 5 cfg1.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [arr1 (V5 m ρ) c]
  unfold layer1 result
  rw [V5_v42 m ρ c, V5_v43 m ρ c, V5_v29 m ρ c, V5_arg5 m ρ c, V5_arg6 m ρ c, region0 m ρ c, agg_eq_mean, biasRow32]

end Cert.KernelIdeal.KValue

end
-- ==== Proof.Bridge.lean ====
/-
  The two programs name one function.

  The reference's gathers, scatters and degree count are the same operations, on the same edge rows, as the
  kernel program's host lines: stage by stage the reference's neighbour sums and in-degrees are the kernel
  program's. With that, the reference's result — the second affine map of the means of the rectified first
  affine map — is the kernel program's result term.
-/
import proofs.«110673_j54065048323043_1_alg».proof.Proof.RefValue
import proofs.«110673_j54065048323043_1_alg».proof.Proof.KernelValue

noncomputable section

namespace Cert.Proof.Bridge

open Idealize.ShloMosaic

section Stages
variable {F : FTy → Type} [FloatOps F]

/-- The reference's first neighbour sums are the kernel program's, of the input features. -/
theorem nsum1 (x0 : (⟨Cert.ReferenceIdeal.S50000x64, .f32⟩ : BufTy).Contents (Elt F)) (x1 : (⟨Cert.ReferenceIdeal.S2x800000, .i32⟩ : BufTy).Contents (Elt F)) :
    Cert.ReferenceIdeal.Read.val_main_v13 (F := F) x0 x1
      = Cert.KernelIdeal.HostK.nsum (F := F) x0 x1 := rfl

/-- The reference's in-degrees (counted once per layer) are the kernel program's. -/
theorem deg1 (x1 : (⟨Cert.ReferenceIdeal.S2x800000, .i32⟩ : BufTy).Contents (Elt F)) :
    Cert.ReferenceIdeal.Read.val_main_v17 (F := F) x1 = Cert.KernelIdeal.HostK.deg (F := F) x1 := rfl
theorem deg2 (x1 : (⟨Cert.ReferenceIdeal.S2x800000, .i32⟩ : BufTy).Contents (Elt F)) :
    Cert.ReferenceIdeal.Read.val_main_v51 (F := F) x1 = Cert.KernelIdeal.HostK.deg (F := F) x1 := rfl

/-- The reference's second neighbour sums are the kernel program's, of the first layer's output. -/
theorem nsum2 (x0 : (⟨Cert.ReferenceIdeal.S50000x64, .f32⟩ : BufTy).Contents (Elt F)) (x1 : (⟨Cert.ReferenceIdeal.S2x800000, .i32⟩ : BufTy).Contents (Elt F))
    (x2 x3 : (⟨Cert.ReferenceIdeal.S64x64, .f32⟩ : BufTy).Contents (Elt F)) (x4 : (⟨Cert.ReferenceIdeal.S64, .f32⟩ : BufTy).Contents (Elt F)) :
    Cert.ReferenceIdeal.Read.val_main_v47 (F := F) x0 x1 x2 x3 x4
      = Cert.KernelIdeal.HostK.nsum (F := F) (Cert.ReferenceIdeal.Read.val_main_v33 (F := F) x0 x1 x2 x3 x4) x1 := rfl

end Stages

/-- The reference's first layer output is the kernel program's. -/
theorem ref_hidden (x0 : (⟨Cert.ReferenceIdeal.S50000x64, .f32⟩ : BufTy).Contents (Elt Ideal)) (x1 : (⟨Cert.ReferenceIdeal.S2x800000, .i32⟩ : BufTy).Contents (Elt Ideal))
    (x2 x3 : (⟨Cert.ReferenceIdeal.S64x64, .f32⟩ : BufTy).Contents (Elt Ideal)) (x4 : (⟨Cert.ReferenceIdeal.S64, .f32⟩ : BufTy).Contents (Elt Ideal)) :
    Cert.ReferenceIdeal.Read.val_main_v33 (F := Ideal) x0 x1 x2 x3 x4 = Cert.KernelIdeal.KValue.hidden x0 x1 x2 x3 x4 := by
  rw [Cert.ReferenceIdeal.RefValue.relu1, Cert.ReferenceIdeal.RefValue.dense1, Cert.ReferenceIdeal.RefValue.mean1, nsum1, deg1]
  rfl

/-- The reference's result is the kernel program's result term. -/
theorem ref_result (x0 : (⟨Cert.ReferenceIdeal.S50000x64, .f32⟩ : BufTy).Contents (Elt Ideal)) (x1 : (⟨Cert.ReferenceIdeal.S2x800000, .i32⟩ : BufTy).Contents (Elt Ideal))
    (x2 x3 : (⟨Cert.ReferenceIdeal.S64x64, .f32⟩ : BufTy).Contents (Elt Ideal)) (x4 : (⟨Cert.ReferenceIdeal.S64, .f32⟩ : BufTy).Contents (Elt Ideal))
    (x5 x6 : (⟨Cert.ReferenceIdeal.S64x32, .f32⟩ : BufTy).Contents (Elt Ideal)) (x7 : (⟨Cert.ReferenceIdeal.S32, .f32⟩ : BufTy).Contents (Elt Ideal)) :
    Cert.ReferenceIdeal.Read.val_main_v66 (F := Ideal) x0 x1 x2 x3 x4 x5 x6 x7 = Cert.KernelIdeal.KValue.result x0 x1 x2 x3 x4 x5 x6 x7 := by
  rw [Cert.ReferenceIdeal.RefValue.dense2, Cert.ReferenceIdeal.RefValue.mean2, nsum2, deg2, ref_hidden]
  rfl

end Cert.Proof.Bridge

end
-- ==== Proof.lean ====
/-
  Two graph-convolution layers with mean aggregation: the kernel program against its reference.

  Both programs take node features X : [50000, 64] and an edge list, and compute
      H   = max(mean(X) · W1n + X · W1r + b1, 0),      out = mean(H) · W2n + H · W2r + b2,
  where row i of mean(Y) is the mean of Y's rows over node i's in-neighbours (zero at an isolated node).
  The kernel program forms the neighbour sums on the host, multiplies row i by the per-node factor
  (1 / max(degree, 1) where the degree is positive, else 0), and computes each layer's affine map in a kernel
  region over ten blocks of 5000 rows; the reference divides the sums by max(degree, 1), selects, and applies
  the affine maps to whole arrays.
  On the extended reals the two agree at every input (Spec.lean): max(degree, 1) ≥ 1 is not zero, so a
  quotient by it is the product with its inverse; any extended real times zero is zero; a change of float
  format is the identity; a product into the zero accumulator and a general dot are the same sum; and the
  row blocks tile the arrays. The gathers and scatters are the same operations on the same edge rows in both
  programs and are carried as whole-array terms. The precondition is not used.
-/
import proofs.«110673_j54065048323043_1_alg».proof.Defs
import proofs.«110673_j54065048323043_1_alg».proof.Proof.Gen.Kernel
import proofs.«110673_j54065048323043_1_alg».proof.Proof.Gen.Kernel.Skeleton
import proofs.«110673_j54065048323043_1_alg».proof.Proof.Gen.Kernel.Launch
import proofs.«110673_j54065048323043_1_alg».proof.Proof.Gen.Kernel.Points
import proofs.«110673_j54065048323043_1_alg».proof.Proof.Gen.Kernel.Frame
import proofs.«110673_j54065048323043_1_alg».proof.Proof.Gen.KernelIdeal
import proofs.«110673_j54065048323043_1_alg».proof.Proof.Gen.KernelIdeal.Skeleton
import proofs.«110673_j54065048323043_1_alg».proof.Proof.Gen.KernelIdeal.Launch
import proofs.«110673_j54065048323043_1_alg».proof.Proof.Gen.KernelIdeal.Points
import proofs.«110673_j54065048323043_1_alg».proof.Proof.Gen.KernelIdeal.Frame
import proofs.«110673_j54065048323043_1_alg».proof.Proof.Gen.ReferenceIdeal
import proofs.«110673_j54065048323043_1_alg».proof.Proof.Gen.Pre_finite_inputs
import proofs.«110673_j54065048323043_1_alg».proof.Proof.KernelRun
import proofs.«110673_j54065048323043_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the two-layer map of the arguments
    in their result arrays. -/
theorem algebraic : Cert.algebraic_KernelIdeal_ReferenceIdeal := by
  intro m ρ m' ρ' _ hagree
  refine ⟨fun c => Cert.KernelIdeal.KValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.region1 m ρ c), (h c).2⟩)
      (Cert.KernelIdeal.RunValue.run_result (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v66_eq, Cert.Proof.Bridge.ref_result, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
